-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32768x1024 .f32) (main_arg1 : FVec F S1024x1024 .f32) (main_arg2 : FVec F S1024x1024 .f32) (main_arg3 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S1024x1 : Shape := ⟨2, ![1024, 1]⟩

abbrev nBuf : Space → Nat
  | .hbm => 23
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1024x1024 : S_.BroadcastsInDim S1024x1024 (![] : Fin 0 → Fin S1024x1024.rank)
  bitsLt_bf16_f32 : FTy.bits .bf16 < FTy.bits .f32
  reducesTo_S1024x1024_S1024_d1 : S1024x1024.ReducesTo [1] S1024
  h_S_ : 0 < S_.numel
  bcast_S_S1024 : S_.BroadcastsInDim S1024 (![] : Fin 0 → Fin S1024.rank)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S32768x1024.size a
  hwx0_4 : ∀ i : grid0.Coords, EltTy.bits .f32 = 32 ∨ (Rect.block (s := S32768x1024) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S32768 : Shape := ⟨1, ![32768]⟩
abbrev S32768x1 : Shape := ⟨2, ![32768, 1]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S32768x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  reducesTo_S1024x1024_S1024_d1 : S1024x1024.ReducesTo [1] S1024
  bcast_S_S1024 : S_.BroadcastsInDim S1024 (![] : Fin 0 → Fin S1024.rank)
  bcast_S32768x1_S32768x1024_0_1 : S32768x1.BroadcastsInDim S32768x1024 (![0, 1] : Fin 2 → Fin S32768x1024.rank)
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.LibKeepdimsLayout.lean ====
/-
  Layout operations read at an index, by coordinates: a vector made a column ([a] → [a,1]), a column broadcast along
  its rows ([a,1] → [a,b]), and a matrix with two unit axes around its rows ([1,a,1,b] ↔ [a,b]).
-/
import Idealize.ShloMosaic.Lib.ValueIdx
import Idealize.ShloMosaic.Lib.Pipeline.Value
import Idealize.ShloMosaic.Lib.ValueLayout

namespace Cert.KernelIdeal.Val

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, c)`, the operand's one column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    rw [Nat.zero_mul, Nat.zero_add, Nat.mul_one, Nat.add_zero])

/-- An `[a, b]` array cast to `[1, a, 1, b]` reads, at `(u, i, w, j)`, the operand at `(i, j)`, whatever the unit
    coordinates. -/
theorem shapeCast_ab_1a1b_apply {a b : ℕ} (x : (⟨2, ![a, b]⟩ : Shape).Idx → α)
    (h : (⟨2, ![a, b]⟩ : Shape).ShapeCasts ⟨4, ![1, a, 1, b]⟩) (u : Fin 1) (i : Fin a) (w : Fin 1) (j : Fin b) :
    shapeCast ⟨4, ![1, a, 1, b]⟩ x h (ix4 u i w j) = x (ix2 i j) :=
  shapeCast_apply x h _ _ (by
    have hu : u.val = 0 := by omega
    have hw : w.val = 0 := by omega
    rw [Shape.rowMajor_val_four, Shape.rowMajor_val_two]
    show i.val * b + j.val = ((u.val * a + i.val) * 1 + w.val) * b + j.val
    rw [hu, hw, Nat.zero_mul, Nat.zero_add, Nat.mul_one, Nat.add_zero])

end Cert.KernelIdeal.Val
-- ==== Proof.Spec.lean ====
/-
  The binarised linear layer, entry by entry, on the extended reals.

  For a row `x(r, ·)` of 1024 activations and a row `wb(c, ·)` of 1024 binarised weights the layer's output at (r, c) is

      ( mean_k |x(r,k)|  ·  s(c) )  ·  ( Σ_k sign(x(r,k)) · wb(c,k)  +  β(c) )

  with `s(c)` the weight scale of output `c` and `β(c)` its bias. The mean is the sum of the 1024 magnitudes divided
  by the float constant 1024; both programs carry that constant as the same bit pattern, so it is kept as the pattern
  and never evaluated. The product is grouped as written — (row scale · weight scale) · (dot + bias) — and the dot
  product is one sum over `k` in one order on both sides, so no law of the extended reals is needed to compare the two
  programs: only that each of them computes this expression.
-/
import Idealize.ShloMosaic.PureOps.Ideal
import Idealize.ShloMosaic.PureOps.Ideal.Laws
import Idealize.ShloMosaic.Lib.ValueIdx

noncomputable section

namespace Cert.BinLinear

open Idealize.ShloMosaic Idealize.ShloMosaic.ValueIdx

/-- The activations [32768, 1024], a weight matrix [1024, 1024], and a row vector [1, 1024]. -/
abbrev SX : Shape := ⟨2, ![32768, 1024]⟩
abbrev SW : Shape := ⟨2, ![1024, 1024]⟩
abbrev SR : Shape := ⟨2, ![1, 1024]⟩

/-- The mean magnitude of a row of 1024 entries: their absolute values summed, divided by the float 1024. -/
def absMean (row : Fin 1024 → EReal) : EReal :=
  Ideal.div (∑ k : Fin 1024, FloatOps.absf (F := Ideal) (φ := .f32) (row k)) (Ideal.ofBits .f32 0x44800000#32)

/-- The signs of a row of activations against a row of weights: Σ_k sign(x_k) · w_k. -/
def signDot (row wrow : Fin 1024 → EReal) : EReal :=
  ∑ k : Fin 1024, Ideal.sign (row k) * wrow k

/-- One output entry from its activation row, its weight row, its weight scale `s` and its bias `β`. -/
def entry (row wrow : Fin 1024 → EReal) (s β : EReal) : EReal :=
  (absMean row * s) * (signDot row wrow + β)

/-- The whole output: entry (r, c) from row `r` of the activations, row `c` of the binarised weights, and column `c` of the
    weight-scale row and of the bias row. -/
def G (x : FVec Ideal SX .f32) (wb : FVec Ideal SW .f32) (s β : FVec Ideal SR .f32) : FVec Ideal SX .f32 :=
  fun i => entry (fun k => x (ix2 (i 0) k)) (fun k => wb (ix2 (i 1) k)) (s (ix2 (0 : Fin 1) (i 1))) (β (ix2 (0 : Fin 1) (i 1)))

/-- The output at explicit coordinates. -/
theorem G_apply (x : FVec Ideal SX .f32) (wb : FVec Ideal SW .f32) (s β : FVec Ideal SR .f32) (r : Fin 32768) (c : Fin 1024) :
    G x wb s β (ix2 r c) = entry (fun k => x (ix2 r k)) (fun k => wb (ix2 c k)) (s (ix2 (0 : Fin 1) c)) (β (ix2 (0 : Fin 1) c)) := rfl

end Cert.BinLinear

end
-- ==== Proof.Payload.lean ====
/-
  The kernel body's stored value, read at one entry (p, q) of its 1024 × 1024 block.

  The body takes a block of 1024 activation rows `v0`, the whole binarised weight matrix `v12`, the bias row `v15` and the
  weight-scale row `v24`. Entry (p, q) of what it stores is the layer's entry of row `p` of the block against row `q` of
  the weights: the lane sum of |v0(p, ·)| made a column, divided by 1024 and spread along the row; times the scale row
  spread down the columns; times the matrix product into a zero accumulator — contracting the second axis of both
  operands, so Σ_k sgn(v0(p,k)) · v12(q,k) — plus the bias row spread down the columns. The sign of an activation is
  computed as "where |a| > 0 take ±1 by the order, else a itself", which is the sign function at every extended real.
-/
import proofs.«116381_j6871947674178_1_alg».proof.Proof.Gen.KernelIdeal.Skeleton
import proofs.«116381_j6871947674178_1_alg».proof.Proof.LibKeepdimsLayout
import proofs.«116381_j6871947674178_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A lane sum over the second axis of a 1024 × 1024 block, read at row `p`: the sum of that row's entries. -/
theorem laneSum_apply (src : FVec Ideal S1024x1024 .f32) (h : S1024x1024.Reduces [1] S1024) (hφ : FKind.Formats .f32)
    (hacc : (0x00000000#32 : BitVec (FTy.bits .f32)) = FKind.add.neutral .f32 hφ) (p : Fin 1024) :
    multiReduction .add [1] S1024 src 0x00000000#32 h hφ hacc (ix1 p) = ∑ k : Fin 1024, src (ix2 p k) := by
  refine (Ideal.multiReduction_add_single src _ h hφ hacc (ix1 p)).trans ?_
  exact Finset.sum_congr rfl fun k _ => congrArg src (funext fun a => Fin.ext (by match a with | ⟨0, _⟩ => rfl | ⟨1, _⟩ => rfl))

/-- The product's dimension numbers: both operands contracted on their second axis, rows of the first against rows of the second. -/
abbrev DD : DotDims S1024x1024 S1024x1024 S1024x1024 := dot_S1024x1024_S1024x1024_S1024x1024_1_1_0_0_n_n

theorem lhs_row (i : S1024x1024.Idx) (c : DD.contr.Idx) : (DD.lhsIdx i c 0).val = (i 0).val := by
  unfold DotDims.lhsIdx
  rw [dif_neg (show ¬(0 : Fin S1024x1024.rank) ∈ DD.lhsBatch by decide), dif_pos (show (0 : Fin S1024x1024.rank) ∈ DD.lhsNonContracting by decide)]
  rfl
theorem lhs_col (i : S1024x1024.Idx) (c : DD.contr.Idx) : (DD.lhsIdx i c 1).val = (c ⟨0, by decide⟩).val :=
  DD.lhsIdx_val_of_single rfl i c
theorem rhs_row (i : S1024x1024.Idx) (c : DD.contr.Idx) : (DD.rhsIdx i c 0).val = (i 1).val := by
  unfold DotDims.rhsIdx
  rw [dif_neg (show ¬(0 : Fin S1024x1024.rank) ∈ DD.rhsBatch by decide), dif_pos (show (0 : Fin S1024x1024.rank) ∈ DD.rhsNonContracting by decide)]
  rfl
theorem rhs_col (i : S1024x1024.Idx) (c : DD.contr.Idx) : (DD.rhsIdx i c 1).val = (c ⟨0, by decide⟩).val :=
  DD.rhsIdx_val_of_single rfl i c

/-- The matrix product into a zero accumulator with both operands contracted on their second axis, read at (p, q):
    Σ_k lhs(p, k) · rhs(q, k). -/
theorem matmulNT_apply (lhs rhs : FVec Ideal S1024x1024 .bf16) (p q : Fin 1024) :
    matmul DD none lhs rhs (constant S1024x1024 .f32 0x00000000#32) (ix2 p q)
      = ∑ k : Fin 1024, lhs (ix2 p k) * rhs (ix2 q k) := by
  simp only [matmul]
  rw [Ideal.matmul_constant_zero_apply, ← Equiv.sum_comp (ValueIdx.contrEquiv1 DD 1024 rfl rfl).symm]
  refine Finset.sum_congr rfl fun k _ => ?_
  have hk := ValueIdx.contrEquiv1_symm_val DD 1024 rfl rfl k
  have el : DD.lhsIdx (ix2 p q) ((ValueIdx.contrEquiv1 DD 1024 rfl rfl).symm k) = ix2 p k := funext fun a => Fin.ext (by
    match a with
    | ⟨0, _⟩ => exact lhs_row _ _
    | ⟨1, _⟩ => exact (lhs_col _ _).trans hk)
  have er : DD.rhsIdx (ix2 p q) ((ValueIdx.contrEquiv1 DD 1024 rfl rfl).symm k) = ix2 q k := funext fun a => Fin.ext (by
    match a with
    | ⟨0, _⟩ => exact rhs_row _ _
    | ⟨1, _⟩ => exact (rhs_col _ _).trans hk)
  rw [el, er]

/-- The body's sign of a block of activations — ±1 by the order where the magnitude is positive, the entry itself where it
    is zero — is the sign function at each entry, the infinities included. -/
theorem signBlock_apply (v0 : FVec Ideal S1024x1024 .f32) (i : S1024x1024.Idx) :
    select (cmpf .ogt (absf v0) (broadcast S1024x1024 (Scalar.ofBits .f32 0x00000000#32)))
        (select (cmpf .olt v0 (constant S1024x1024 .f32 0x00000000#32)) (constant S1024x1024 .f32 0xBF800000#32)
          (constant S1024x1024 .f32 0x3F800000#32)) v0 i
      = Ideal.sign (v0 i) :=
  Ideal.jnp_sign_eq_sign_f32 (v0 i)

/-- ENTRY (p, q) OF THE STORED BLOCK is the layer's entry of activation row `p` of the block against weight row `q`,
    with column `q` of the scale row and of the bias row. -/
theorem pay_apply (v0 : Vec Ideal S1024x1024 .f32) (v12 : Vec Ideal S1024x1024 .bf16) (v15 v24 : Vec Ideal S1x1024 .f32) (p q : Fin 1024) :
    k0_pay1 v0 v12 v15 v24 (ix2 p q)
      = BinLinear.entry (fun k => v0 (ix2 p k)) (fun k => v12 (ix2 q k)) (v24 (ix2 (0 : Fin 1) q)) (v15 (ix2 (0 : Fin 1) q)) := by
  unfold k0_pay1 BinLinear.entry
  rw [mulf_apply, mulf_apply, addf_apply]
  refine congrArg₂ _ (congrArg₂ _ ?_ ?_) (congrArg₂ _ ?_ ?_)
  · -- the row's mean magnitude
    refine (Val.broadcastTo_a1_ab_apply _ _ p q).trans ?_
    unfold BinLinear.absMean
    refine congrArg (Ideal.div · _) ?_
    refine (Val.shapeCast_a_a1_apply _ _ p 0).trans ?_
    exact laneSum_apply _ _ _ _ p
  · -- the weight scale of column q
    refine (broadcastTo_1b_ab_apply _ _ p q).trans ?_
    exact congrFun (shapeCast_self v24 _) _
  · -- the signs of row p against weight row q
    refine (matmulNT_apply _ _ p q).trans ?_
    unfold BinLinear.signDot
    refine Finset.sum_congr rfl fun k _ => congrArg₂ _ ?_ ?_
    · exact signBlock_apply v0 (ix2 p k)
    · exact congrFun (shapeCast_self v12 _) _
  · -- the bias of column q
    refine (broadcastTo_1b_ab_apply _ _ p q).trans ?_
    exact congrFun (shapeCast_self v15 _) _

end Cert.KernelIdeal.Body

end
-- ==== Proof.KernelValue.lean ====
/-
  From blocks to the array: what the kernel's result array holds after the run.

  The grid has 32 points. At point t the activations' window is rows 1024·t … 1024·t + 1023 of the array, the output's
  window is the same rows of the result, and the three other windows (binarised weights, bias row, weight-scale row) are
  their whole arrays at every point. So what point t writes back — the stored block, whose entry (p, q) is the layer's
  entry of block row p against weight row q — is rows 1024·t … of ONE function of the four window arrays, the layer `G`;
  the 32 blocks tile the 32768 rows (row r lies in block r / 1024), hence the result array ends holding `G`.
-/
import proofs.«116381_j6871947674178_1_alg».proof.Proof.Gen.KernelIdeal.Value
import proofs.«116381_j6871947674178_1_alg».proof.Proof.Payload
import proofs.«116381_j6871947674178_1_alg».proof.Proof.Spec
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- A stored block is rows n·1024 … of the layer: if the activation block `x0` is those rows of `X` and the three other
    operands are the whole arrays `WB`, `B`, `SC`, the stored value at `j` is `G` at the index `i` that `j` names in the array. -/
theorem block_entry (X : FVec Ideal BinLinear.SX .f32) (WB : FVec Ideal BinLinear.SW .f32) (SC B : FVec Ideal BinLinear.SR .f32)
    (x0 : Vec Ideal S1024x1024 .f32) (x1 : Vec Ideal S1024x1024 .bf16) (x2 x3 : Vec Ideal S1x1024 .f32) (n : Nat)
    (h0 : ∀ (p : Fin 1024) (k : Fin 1024) (r : Fin 32768), r.val = n * 1024 + p.val → x0 (ix2 p k) = X (ix2 r k))
    (h1 : ∀ q k : Fin 1024, x1 (ix2 q k) = WB (ix2 q k))
    (h2 : ∀ q : Fin 1024, x2 (ix2 (0 : Fin 1) q) = B (ix2 (0 : Fin 1) q))
    (h3 : ∀ q : Fin 1024, x3 (ix2 (0 : Fin 1) q) = SC (ix2 (0 : Fin 1) q))
    (j : S1024x1024.Idx) (i : BinLinear.SX.Idx) (hi0 : (i 0).val = n * 1024 + (j 0).val) (hi1 : (i 1).val = (j 1).val) :
    k0_pay1 x0 x1 x2 x3 j = BinLinear.G X WB SC B i := by
  obtain ⟨p, q, rfl⟩ : ∃ (p : Fin 1024) (q : Fin 1024), j = ix2 p q := ⟨j 0, j 1, eq_ix2 j⟩
  obtain ⟨r, c, rfl⟩ : ∃ (r : Fin 32768) (c : Fin 1024), i = ix2 r c := ⟨i 0, i 1, eq_ix2 i⟩
  have hr : r.val = n * 1024 + p.val := hi0
  obtain rfl : c = q := Fin.ext hi1
  rw [Body.pay_apply, BinLinear.G_apply]
  have e0 : (fun k => x0 (ix2 p k)) = fun k => X (ix2 r k) := funext fun k => h0 p k r hr
  have e1 : (fun k => x1 (ix2 c k)) = fun k => WB (ix2 c k) := funext fun k => h1 c k
  rw [e0, e1, h2 c, h3 c]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 32 points: the activations' and the output's block index is (t, 0); the other
    three windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the layer `G` of the four window arrays as the region finds them. -/
theorem flushed_eq (c : Dev nD) (t : Fin cfg0.N) :
    (dats m 0 c).flushed 4 t = ((cfg0.win 4).blk t).view.read (Elt Ideal)
      (BinLinear.G (V m c main_arg0) (V m c main_v7) (V m c main_v12) (V m c main_v13)) := by
  rw [Value.flushed4]
  unfold out0_4
  rw [View.canon_unit_zero hz]
  simp only [View.ld_unit_zero (S := S1024x1024) hz, View.ld_unit_zero (S := S1x1024) hz]
  obtain ⟨e00, e01, e10, e11, e20, e21, e30, e31, e40, e41⟩ := idx_facts t
  funext j
  show k0_pay1 (iblk m c 0 t) (iblk m c 1 t) (iblk m c 2 t) (iblk m c 3 t) j
    = BinLinear.G (V m c main_arg0) (V m c main_v7) (V m c main_v12) (V m c main_v13) (((cfg0.win 4).blk t).view.emb j)
  refine block_entry _ _ _ _ (iblk m c 0 t) (iblk m c 1 t) (iblk m c 2 t) (iblk m c 3 t) t.val ?_ ?_ ?_ ?_ j _ ?_ ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 1024 + 1 * p.val = r.val; rw [e00, hr]; omega
    | ⟨1, _⟩ => show win0_0.index t (1 : Fin 2) * 1024 + 1 * k.val = k.val; rw [e01]; omega
  · intro q k
    show V m c main_v7 (((cfg0.win 1).blk t).view.emb (ix2 q k)) = V m c main_v7 (ix2 q k)
    refine congrArg (V m c main_v7) (funext fun a => Fin.ext ?_)
    match a with
    | ⟨0, _⟩ => show win0_1.index t (0 : Fin 2) * 1024 + 1 * q.val = q.val; rw [e10]; omega
    | ⟨1, _⟩ => show win0_1.index t (1 : Fin 2) * 1024 + 1 * k.val = k.val; rw [e11]; omega
  · intro q
    show V m c main_v13 (((cfg0.win 2).blk t).view.emb (ix2 (0 : Fin 1) q)) = V m c main_v13 (ix2 (0 : Fin 1) q)
    refine congrArg (V m c main_v13) (funext fun a => Fin.ext ?_)
    match a with
    | ⟨0, _⟩ => show win0_2.index t (0 : Fin 2) * 1 + 1 * 0 = 0; rw [e20]
    | ⟨1, _⟩ => show win0_2.index t (1 : Fin 2) * 1024 + 1 * q.val = q.val; rw [e21]; omega
  · intro q
    show V m c main_v12 (((cfg0.win 3).blk t).view.emb (ix2 (0 : Fin 1) q)) = V m c main_v12 (ix2 (0 : Fin 1) q)
    refine congrArg (V m c main_v12) (funext fun a => Fin.ext ?_)
    match a with
    | ⟨0, _⟩ => show win0_3.index t (0 : Fin 2) * 1 + 1 * 0 = 0; rw [e30]
    | ⟨1, _⟩ => show win0_3.index t (1 : Fin 2) * 1024 + 1 * q.val = q.val; rw [e31]; omega
  · show win0_4.index t (0 : Fin 2) * 1024 + 1 * (j 0).val = t.val * 1024 + (j 0).val
    rw [e40]; omega
  · show win0_4.index t (1 : Fin 2) * 1024 + 1 * (j 1).val = (j 1).val
    rw [e41]; omega

/-- An index of the result array is in point `t`'s block iff each coordinate is in the block's range on its axis. -/
theorem mem_blk (t : Fin cfg0.N) (i : S32768x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v14).slice (win0_4.rect t)).set ↔ _
  rw [View.set_slice_whole, Rect.mem_set_unit]
  exact Iff.rfl

/-- Every row of the result lies in some point's block: row r in block r / 1024. -/
theorem cover (i : S32768x1024.Idx) : ∃ t : Fin cfg0.N, (cfg0.win 4).flush t = true ∧ i ∈ ((cfg0.win 4).blk t).view.set := by
  have hN : cfg0.N = 32 := N_0
  have hi0 : (i 0).val < 32768 := (i 0).isLt
  have hi1 : (i 1).val < 1024 := (i 1).isLt
  let t : Fin cfg0.N := ⟨(i 0).val / 1024, by rw [hN]; omega⟩
  have ht : t.val = (i 0).val / 1024 := rfl
  obtain ⟨-, -, -, -, -, -, -, -, e40, e41⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; rw [e40, ht]; omega
  | ⟨1, _⟩ => show win0_4.index t (1 : Fin 2) * 1024 ≤ (i 1).val ∧ (i 1).val < win0_4.index t (1 : Fin 2) * 1024 + 1024; rw [e41]; omega

/-- THE RESULT ARRAY after the run is the layer `G` of the four window arrays. -/
theorem final (c : Dev nD) : (dats m 0 c).arrAt 4 cfg0.N
    = BinLinear.G (V m c main_arg0) (V m c main_v7) (V m c main_v12) (V m c main_v13) :=
  (dats m 0 c).arrAt_eq_of_cover 4 _ (fun t _ => flushed_eq m c t) cover

/-- The run, read: the result array at the layer of the window arrays, the arguments unchanged. -/
theorem run : θ_run defs (onTc (τ := τ) (main (F := Ideal))) ⟨m, fun _ => 0, ρ⟩ fun r => ∀ c : Dev nD,
      r.2.mem ((c : Thread nD τ).loc main_v14) = BinLinear.G (V m c main_arg0) (V m c main_v7) (V m c main_v12) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.LibBiasRow.lean ====
/-
  A vector of n entries laid out as a row [1, n] — two spellings of one array.

  jnp writes `b[None, :]` either as `broadcast_in_dim` with the vector's axis sent to axis 1, or as a reshape
  [n] → [1, n]. Both read, at (0, i), the vector at i: the broadcast because axis 1 of the result is the
  vector's axis and axis 0 is new, the reshape because row-major position 0·n + i is position i. So the two
  rows are equal as arrays, for every n and every element type.
-/
import Idealize.ShloMosaic.PureOps.Ideal
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- A vector [n] broadcast in dimension 1 to a row [1, n] is the vector reshaped to [1, n]. -/
theorem bcastRow_eq_reshape {n : Nat} {α : Type} (x : (⟨1, ![n]⟩ : Shape).Idx → α)
    (hb : (⟨1, ![n]⟩ : Shape).BroadcastsInDim ⟨2, ![1, n]⟩ ![1])
    (hs : (⟨1, ![n]⟩ : Shape).ShapeCasts ⟨2, ![1, n]⟩) :
    broadcastInDim ⟨2, ![1, n]⟩ ![1] hb x = shapeCast ⟨2, ![1, n]⟩ x hs := by
  funext j
  obtain ⟨u, i, rfl⟩ : ∃ (u : Fin 1) (i : Fin n), j = ix2 u i := ⟨j 0, j 1, eq_ix2 j⟩
  rw [shapeCast_a_1a_apply]
  refine broadcastInDim_apply _ hb x _ (ix1 i) (fun a => ?_)
  match a with
  | ⟨0, _⟩ =>
    show i.val = if n = 1 then 0 else i.val
    have := i.isLt
    split <;> omega

end Cert.LibBiasRow

end
-- ==== Proof.HostPrefix.lean ====
/-
  The host operations before the region: what the three computed windows hold when the kernel starts.

  Before the kernel is launched the program binarises the gated weights, sign(w ⊙ (sign(g) + 1)/2) rounded to bf16 — a
  change of format, which is the identity on the extended reals —, takes each weight row's mean magnitude and lays it
  out as a [1, 1024] row, and lays the bias out as a [1, 1024] row. The reference computes the same three arrays by
  the same operations, except that it makes the two rows by a broadcast along a new leading axis where the kernel's
  program reshapes: a vector laid out as one row either way is the same array.
-/
import proofs.«116381_j6871947674178_1_alg».proof.Proof.Gen.KernelIdeal.Frame
import proofs.«116381_j6871947674178_1_alg».proof.Proof.Gen.ReferenceIdeal.Read
import proofs.«116381_j6871947674178_1_alg».proof.Proof.LibBiasRow
import Idealize.ShloMosaic.Lib.StableHlo.Run

noncomputable section

namespace Cert.KernelIdeal.Prefix

open Cert.KernelIdeal Cert.KernelIdeal.Gen Idealize.ShloMosaic Idealize.ShloMosaic.TcCoe Idealize.SL.Sem

variable (m : (ℓ : Loc nD τ sig) → Buf (Elt Ideal) ℓ)

/-- The binarised weights the kernel is given are the reference's binarised weights of the same arguments. -/
theorem V_wbin (c : Dev nD) :
    (V m c main_v7 : S1024x1024.Idx → EReal)
      = Cert.ReferenceIdeal.Read.val_main_v7 (F := Ideal) (m ((c : Thread nD τ).loc main_arg1)) (m ((c : Thread nD τ).loc main_arg2)) := by
  dsimp only [Gen.V, Gen.hostOps0]
  after_results
  rfl

/-- The weight-scale row the kernel is given is the reference's weight-scale row. -/
theorem V_scaleRow (c : Dev nD) :
    (V m c main_v12 : S1x1024.Idx → EReal)
      = Cert.ReferenceIdeal.Read.val_main_v21 (F := Ideal) (m ((c : Thread nD τ).loc main_arg1)) := by
  dsimp only [Gen.V, Gen.hostOps0]
  after_results
  exact (Cert.LibBiasRow.bcastRow_eq_reshape (Cert.ReferenceIdeal.Read.val_main_v20 (F := Ideal) (m ((c : Thread nD τ).loc main_arg1))) _ _).symm

/-- The bias row the kernel is given is the reference's bias row. -/
theorem V_biasRow (c : Dev nD) :
    (V m c main_v13 : S1x1024.Idx → EReal)
      = Cert.ReferenceIdeal.Read.val_main_v9 (F := Ideal) (m ((c : Thread nD τ).loc main_arg3)) := by
  dsimp only [Gen.V, Gen.hostOps0]
  after_results
  exact (Cert.LibBiasRow.bcastRow_eq_reshape (m ((c : Thread nD τ).loc main_arg3)) _ _).symm

end Cert.KernelIdeal.Prefix

end
-- ==== Proof.RefValue.lean ====
/-
  The reference, read at one entry: it is the layer's entry.

  The reference computes sign(x) · sign(w ⊙ mask)ᵀ + bias, then multiplies by (mean_k |x(r,k)| · weight scale). Read at
  entry (r, c) its last multiply is (row scale of r · weight scale of c) · (Σ_k sign(x(r,k)) · wb(c,k) + bias(c)), where
  the row scale is the host's sum of row r's magnitudes — zero plus the sum — divided by the float 1024, and the weight
  scale and the bias arrive as [1, 1024] rows broadcast down the 32768 rows. The binarised weight matrix and the two rows
  are left as the reference's own stages: the kernel's program computes them by the same host operations.
-/
import proofs.«116381_j6871947674178_1_alg».proof.Proof.Gen.ReferenceIdeal.Read
import proofs.«116381_j6871947674178_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx

/-- Where the reference's stages read their operands, at entry (r, c) and summation index k. -/
theorem idx_rowAbs (r : Fin 32768) (c : Fin 1024) (k : Fin 1024) :
    idx_main_v13 (idx_main_v14 (idx_main_v22 (ix2 r c))) k = ix2 r k :=
  funext fun a => Fin.ext (by match a with | ⟨0, _⟩ => rfl | ⟨1, _⟩ => rfl)
theorem idx_scaleRow (r : Fin 32768) (c : Fin 1024) : idx_main_v23 (ix2 r c) = ix2 (0 : Fin 1) c :=
  funext fun a => Fin.ext (by match a with | ⟨0, _⟩ => rfl | ⟨1, _⟩ => rfl)
theorem idx_biasRow (r : Fin 32768) (c : Fin 1024) : idx_main_v10 (ix2 r c) = ix2 (0 : Fin 1) c :=
  funext fun a => Fin.ext (by match a with | ⟨0, _⟩ => rfl | ⟨1, _⟩ => rfl)
theorem idx_dotL (r : Fin 32768) (c : Fin 1024) (k : Fin 1024) : lidx_main_v8 (ix2 r c) k = ix2 r k :=
  funext fun a => Fin.ext (by match a with | ⟨0, _⟩ => rfl | ⟨1, _⟩ => rfl)
theorem idx_dotR (r : Fin 32768) (c : Fin 1024) (k : Fin 1024) : ridx_main_v8 (ix2 r c) k = ix2 c k :=
  funext fun a => Fin.ext (by match a with | ⟨0, _⟩ => rfl | ⟨1, _⟩ => rfl)

/-- THE REFERENCE IS THE LAYER: its result is `G` of the activations, of its own binarised weights, of its own weight-scale
    row and of its own bias row. -/
theorem result_eq (x0 : FVec Ideal S32768x1024 .f32) (x1 x2 : FVec Ideal S1024x1024 .f32) (x3 : FVec Ideal S1024 .f32) :
    val_main_v25 (F := Ideal) x0 x1 x2 x3
      = BinLinear.G x0 (val_main_v7 (F := Ideal) x1 x2) (val_main_v21 (F := Ideal) x1) (val_main_v9 (F := Ideal) x3) := by
  funext i
  obtain ⟨r, c, rfl⟩ : ∃ (r : Fin 32768) (c : Fin 1024), i = ix2 r c := ⟨i 0, i 1, eq_ix2 i⟩
  rw [BinLinear.G_apply]
  rw [val_main_v25_apply, val_main_v24_apply, val_main_v22_apply, val_main_v16_apply, val_main_v14_apply, val_main_v13_apply,
    val_main_v15_apply, val_main_v23_apply, val_main_v11_apply, val_main_v8_apply, val_main_v10_apply,
    val_main_cst_1_apply, val_main_cst_2_apply, idx_scaleRow, idx_biasRow]
  rw [Ideal.mulf_def, Ideal.mulf_def, Ideal.addf_def, Ideal.hostDivf_def, Ideal.ofBits_def, Ideal.ofBits_def, Ideal.ofBits_zero_f32, zero_add]
  unfold BinLinear.entry BinLinear.absMean BinLinear.signDot
  refine congrArg₂ _ (congrArg₂ _ (congrArg (Ideal.div · _) ?_) rfl) (congrArg₂ _ ?_ rfl)
  · refine Finset.sum_congr rfl fun k _ => ?_
    rw [val_main_v12_apply, idx_rowAbs, Ideal.hostAbsf_def]
  · refine Finset.sum_congr rfl fun k _ => ?_
    rw [val_main_v0_apply, idx_dotL, idx_dotR, Ideal.hostUnary_sign_def]

end Cert.ReferenceIdeal.RefValue

end
-- ==== Proof.lean ====
/-
  The binarised linear layer: the kernel against its reference on the extended reals.

  Both programs compute, for activations x [32768, 1024], weights w and gates g [1024, 1024] and a bias [1024],

      out(r, c) = ( mean_k |x(r,k)| · mean_k |w(c,k)| ) · ( Σ_k sign(x(r,k)) · sign(w ⊙ (sign(g) + 1)/2)(c,k) + bias(c) ).

  The kernel's program prepares the binarised weights (rounded to bf16: the identity here), the weight-scale row and the
  bias row on the host and then, for each block of 1024 activation rows, computes the block of the output inside the
  kernel: the signs of the activations, the matrix product against the binarised weights, the bias, the row's mean
  magnitude by a lane sum, and the two scalings. The reference computes the same expression on whole arrays. Nothing
  is re-associated between them — the same grouping of the three factors, one sum over k in one order — so the two
  results are equal at every extended real input and the precondition is not used. What has to be shown is that each
  program computes the expression: the kernel block by block, the blocks tiling the rows (KernelValue, over Payload);
  the reference stage by stage (RefValue); and that the three arrays prepared on the host are the reference's own
  (HostPrefix). The kernel's activation sign is written "where |a| > 0 take ±1 by the order, else a": the sign function
  at every extended real; the word-level kernel reads the sign bit instead, which is the one rewrite between the kernel
  and its idealization.
-/
import proofs.«116381_j6871947674178_1_alg».proof.Defs
import proofs.«116381_j6871947674178_1_alg».proof.Proof.Gen.Kernel
import proofs.«116381_j6871947674178_1_alg».proof.Proof.Gen.Kernel.Skeleton
import proofs.«116381_j6871947674178_1_alg».proof.Proof.Gen.Kernel.Launch
import proofs.«116381_j6871947674178_1_alg».proof.Proof.Gen.Kernel.Points
import proofs.«116381_j6871947674178_1_alg».proof.Proof.Gen.Kernel.Frame
import proofs.«116381_j6871947674178_1_alg».proof.Proof.Gen.KernelIdeal
import proofs.«116381_j6871947674178_1_alg».proof.Proof.Gen.KernelIdeal.Skeleton
import proofs.«116381_j6871947674178_1_alg».proof.Proof.Gen.KernelIdeal.Launch
import proofs.«116381_j6871947674178_1_alg».proof.Proof.Gen.KernelIdeal.Points
import proofs.«116381_j6871947674178_1_alg».proof.Proof.Gen.KernelIdeal.Frame
import proofs.«116381_j6871947674178_1_alg».proof.Proof.Gen.ReferenceIdeal
import proofs.«116381_j6871947674178_1_alg».proof.Proof.Gen.Pre_finite_inputs
import proofs.«116381_j6871947674178_1_alg».proof.Proof.Gen.KernelIdeal.Value
import proofs.«116381_j6871947674178_1_alg».proof.Proof.Gen.ReferenceIdeal.Run
import proofs.«116381_j6871947674178_1_alg».proof.Proof.Gen.ReferenceIdeal.Read
import proofs.«116381_j6871947674178_1_alg».proof.Proof.KernelValue
import proofs.«116381_j6871947674178_1_alg».proof.Proof.HostPrefix
import proofs.«116381_j6871947674178_1_alg».proof.Proof.RefValue
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying an activation's sign bit is, on the extended reals, -1 below zero
    and 1 otherwise. -/
theorem preserves : Cert.preserves_Kernel_KernelIdeal :=
  IdealRules.sign_bit.statement Cert.KernelIdeal.S1024x1024 .f32

/-- The kernel's result array ends at the layer `G` of the activations and of the three arrays its host operations
    prepared; the reference's at `G` of the activations and of its own three stages; and those are the same arrays of
    arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2.1, (hagree c).2.2.2,
    Cert.KernelIdeal.Gen.V_main_arg0, Cert.KernelIdeal.Prefix.V_wbin, Cert.KernelIdeal.Prefix.V_scaleRow,
    Cert.KernelIdeal.Prefix.V_biasRow]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
